-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S256x16 : Shape := ⟨2, ![256, 16]⟩
abbrev S16x256 : Shape := ⟨2, ![16, 256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S500000x256 .f32) (main_arg1 : FVec F S256x16 .f32) (main_arg2 : FVec F S16x256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S500000x256 : Shape := ⟨2, ![500000, 256]⟩
abbrev S256x16 : Shape := ⟨2, ![256, 16]⟩
abbrev S16x256 : Shape := ⟨2, ![16, 256]⟩
abbrev S5000x256 : Shape := ⟨2, ![5000, 256]⟩
abbrev S5000x16 : Shape := ⟨2, ![5000, 16]⟩

abbrev nBuf : Space → Nat
  | .hbm => 6
  | .vmem => 6
  | .smem => 0
  | _ => 0

abbrev bufTy : (tb : Table) → Fin (tcTables nBuf tb) → BufTy
  | .hbm, ⟨0, _⟩ => ⟨S500000x256, .f32⟩
  | .hbm, ⟨1, _⟩ => ⟨S256x16, .f32⟩
  | .hbm, ⟨2, _⟩ => ⟨S16x256, .f32⟩
  | .hbm, ⟨3, _⟩ => ⟨S256x16, .bf16⟩
  | .hbm, ⟨4, _⟩ => ⟨S16x256, .bf16⟩
  | .hbm, ⟨5, _⟩ => ⟨S500000x256, .f32⟩
  | .local _ .vmem, ⟨0, _⟩ => ⟨S5000x256, .f32⟩
  | .local _ .vmem, ⟨1, _⟩ => ⟨S5000x256, .f32⟩
  | .local _ .vmem, ⟨2, _⟩ => ⟨S256x16, .bf16⟩
  | .local _ .vmem, ⟨3, _⟩ => ⟨S16x256, .bf16⟩
  | .local _ .vmem, ⟨4, _⟩ => ⟨S5000x256, .f32⟩
  | .local _ .vmem, ⟨5, _⟩ => ⟨S5000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  dot_S5000x256_S256x16_S5000x16_1_0_0_1_n_n_wf : DotDims.WF S5000x256 S256x16 S5000x16 [1] [0] [0] [1] [] []
  dot_S5000x16_S16x256_S5000x256_1_0_0_1_n_n_wf : DotDims.WF S5000x16 S16x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .bf16 = 32 ∨ (Rect.block (s := S256x16) S256x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .bf16 = 32 ∨ (Rect.block (s := S16x256) S16x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S500000x256.size a
  hwx0_3 : ∀ i : grid0.Coords, EltTy.bits .f32 = 32 ∨ (Rect.block (s := S500000x256) S5000x256.size (cc0_transform_3 i) (hinb0_3 i)).WholeWords (EltTy.packing .f32)

variable [Facts₀]

def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def dot_S5000x16_S16x256_S5000x256_1_0_0_1_n_n : DotDims S5000x16 S16x256 S5000x256 where
  lhsContracting := [1]
  rhsContracting := [0]
  lhsNonContracting := [0]
  rhsNonContracting := [1]
  lhsBatch := []
  rhsBatch := []
  wf := dot_S5000x16_S16x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x256 : Shape := ⟨2, ![500000, 256]⟩
abbrev S256x16 : Shape := ⟨2, ![256, 16]⟩
abbrev S16x256 : Shape := ⟨2, ![16, 256]⟩
abbrev S500000x16 : Shape := ⟨2, ![500000, 16]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S256x16, .f32⟩
  | .hbm, ⟨2, _⟩ => ⟨S16x256, .f32⟩
  | .hbm, ⟨3, _⟩ => ⟨S500000x16, .f32⟩
  | .hbm, ⟨4, _⟩ => ⟨S_, .f32⟩
  | .hbm, ⟨5, _⟩ => ⟨S500000x16, .f32⟩
  | .hbm, ⟨6, _⟩ => ⟨S500000x16, .f32⟩
  | .hbm, ⟨7, _⟩ => ⟨S500000x256, .f32⟩
  | .hbm, ⟨8, _⟩ => ⟨S500000x16, .f32⟩
  | .hbm, ⟨9, _⟩ => ⟨S_, .f32⟩
  | .hbm, ⟨10, _⟩ => ⟨S500000x16, .f32⟩
  | .hbm, ⟨11, _⟩ => ⟨S500000x16, .f32⟩
  | .hbm, ⟨12, _⟩ => ⟨S500000x256, .f32⟩
  | .hbm, ⟨13, _⟩ => ⟨S500000x256, .f32⟩
  | .hbm, ⟨14, _⟩ => ⟨S500000x256, .f32⟩
  | .hbm, ⟨15, _⟩ => ⟨S500000x256, .f32⟩
  | .hbm, ⟨16, _⟩ => ⟨S_, .f32⟩
  | .hbm, ⟨17, _⟩ => ⟨S500000x256, .f32⟩
  | .hbm, ⟨18, _⟩ => ⟨S500000x256, .f32⟩
  | .hbm, ⟨19, _⟩ => ⟨S_, .f32⟩
  | .hbm, ⟨20, _⟩ => ⟨S500000x256, .f32⟩
  | .hbm, ⟨21, _⟩ => ⟨S500000x256, .f32⟩
  | .hbm, ⟨22, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S500000x16 : S_.BroadcastsInDim S500000x16 (![] : Fin 0 → Fin S500000x16.rank)
  bcast_S_S500000x256 : S_.BroadcastsInDim S500000x256 (![] : Fin 0 → Fin S500000x256.rank)
  dot_S500000x256_S256x16_S500000x16_1_0_0_1_n_n_wf : DotDims.WF S500000x256 S256x16 S500000x16 [1] [0] [0] [1] [] []
  dot_S500000x16_S16x256_S500000x256_1_0_0_1_n_n_wf : DotDims.WF S500000x16 S16x256 S500000x256 [1] [0] [0] [1] [] []

variable [Facts₀]

def dot_S500000x256_S256x16_S500000x16_1_0_0_1_n_n : DotDims S500000x256 S256x16 S500000x16 where
  lhsContracting := [1]
  rhsContracting := [0]
  lhsNonContracting := [0]
  rhsNonContracting := [1]
  lhsBatch := []
  rhsBatch := []
  wf := dot_S500000x256_S256x16_S500000x16_1_0_0_1_n_n_wf
def dot_S500000x16_S16x256_S500000x256_1_0_0_1_n_n : DotDims S500000x16 S16x256 S500000x256 where
  lhsContracting := [1]
  rhsContracting := [0]
  lhsNonContracting := [0]
  rhsNonContracting := [1]
  lhsBatch := []
  rhsBatch := []
  wf := dot_S500000x16_S16x256_S500000x256_1_0_0_1_n_n_wf

class Facts : Prop extends Facts₀ where

variable [Facts]
-- ==== Proof.GateRow.lean ====
/-
  The mathematics of the gate, one row at a time.

  For a row `xr` of 256 extended reals and the two weight matrices `w1` (256 by 16) and `w2` (16 by 256):
    hidden k  = max (sum over l of xr l * w1 (l, k)) 0                       (16 values)
    mix q     = sum over k of hidden k * w2 (k, q)                           (256 values)
    gate q    = xr q * logistic (2 * mix q),   logistic z = 1 / (1 + exp (-z)).
  Each row of the result depends on the same row of the input and on nothing else of it, so both a block of rows and
  the whole array are this one function applied row by row.

  The one law that joins the two spellings of the gate: on the extended reals `2 * M = M + M` for EVERY `M` (also at
  the two infinities, where both sides are that infinity), so `logistic (2 * M) = 1 / (1 + exp (-(M + M)))` with no
  finiteness assumed. The words `1.0` and `2.0` are read as the numbers 1 and 2 here, once.
-/
import Idealize.ShloMosaic.PureOps.Ideal
import Idealize.ShloMosaic.Lib.ValueIdx

noncomputable section

open scoped BigOperators

namespace Cert.FeatureGate

open Idealize.ShloMosaic Idealize.ShloMosaic.ValueIdx

/-! ## The two float words the gate spells -/

/-- The word of `1.0` denotes the number one. -/
theorem ofBits_one : Ideal.ofBits .f32 0x3F800000#32 = 1 := by
  simp [Ideal.ofBits, Ideal.ieee, -EReal.coe_mul]; norm_num

/-- The word of `2.0` denotes the number two. -/
theorem ofBits_two : Ideal.ofBits .f32 0x40000000#32 = 2 := by
  simp [Ideal.ofBits, Ideal.ieee, -EReal.coe_mul]; norm_num; rfl

/-! ## Doubling on the extended reals -/

/-- Twice an extended real is that extended real added to itself: on a real this is `two_mul`; twice an infinity is
    that infinity, and so is the infinity added to itself. -/
theorem two_mul_eq_add (M : EReal) : (2 : EReal) * M = M + M := by
  have h2 : (2 : EReal) = ((2 : ℝ) : EReal) := rfl
  induction M using EReal.rec with
  | bot => rw [h2, EReal.coe_mul_bot_of_pos (by norm_num)]; rfl
  | coe r => rw [h2, ← EReal.coe_mul, ← EReal.coe_add, two_mul]
  | top => rw [h2, EReal.coe_mul_top_of_pos (by norm_num)]; rfl

/-! ## The gate on one row -/

/-- The 16 hidden activations of a row: the row against each column of `w1`, clamped below at the word `0.0`. -/
def hiddenRow (xr : Fin 256 → EReal) (w1 : (⟨2, ![256, 16]⟩ : Shape).Idx → EReal) (k : Fin 16) : EReal :=
  max (∑ l : Fin 256, xr l * w1 (ix2 l k)) (Ideal.ofBits .f32 0x00000000#32)

/-- The hidden activations against each column of `w2`. -/
def mixRow (xr : Fin 256 → EReal) (w1 : (⟨2, ![256, 16]⟩ : Shape).Idx → EReal)
    (w2 : (⟨2, ![16, 256]⟩ : Shape).Idx → EReal) (q : Fin 256) : EReal :=
  ∑ k : Fin 16, hiddenRow xr w1 k * w2 (ix2 k q)

/-- The gated row: each entry times the logistic of twice its mixed activation. -/
def gateRow (xr : Fin 256 → EReal) (w1 : (⟨2, ![256, 16]⟩ : Shape).Idx → EReal)
    (w2 : (⟨2, ![16, 256]⟩ : Shape).Idx → EReal) (q : Fin 256) : EReal :=
  xr q * Ideal.logistic (Ideal.ofBits .f32 0x40000000#32 * mixRow xr w1 w2 q)

/-- The gate spelt with the mixed activation added to itself and the logistic written out as a quotient: the same
    number, by `two_mul_eq_add` and the definition of the logistic. -/
theorem gateRow_of_sum (xr : Fin 256 → EReal) (w1 : (⟨2, ![256, 16]⟩ : Shape).Idx → EReal)
    (w2 : (⟨2, ![16, 256]⟩ : Shape).Idx → EReal) (q : Fin 256) :
    xr q * Ideal.div (Ideal.ofBits .f32 0x3F800000#32)
        (Ideal.ofBits .f32 0x3F800000#32 + Ideal.exp (-(mixRow xr w1 w2 q + mixRow xr w1 w2 q)))
      = gateRow xr w1 w2 q := by
  unfold gateRow Ideal.logistic
  rw [ofBits_one, ofBits_two, two_mul_eq_add]

/-! ## The gate on the whole array -/

/-- The result array: every one of the 500000 rows of `x` gated, entry (r, q) the gate of row `r` at column `q`. -/
def gated (x : (⟨2, ![500000, 256]⟩ : Shape).Idx → EReal) (w1 : (⟨2, ![256, 16]⟩ : Shape).Idx → EReal)
    (w2 : (⟨2, ![16, 256]⟩ : Shape).Idx → EReal) : (⟨2, ![500000, 256]⟩ : Shape).Idx → EReal :=
  fun i => gateRow (fun l => x (ix2 (i 0) l)) w1 w2 (i 1)

/-- At row `r`, column `q`. -/
theorem gated_at (x : (⟨2, ![500000, 256]⟩ : Shape).Idx → EReal) (w1 : (⟨2, ![256, 16]⟩ : Shape).Idx → EReal)
    (w2 : (⟨2, ![16, 256]⟩ : Shape).Idx → EReal) (r : Fin 500000) (q : Fin 256) :
    gated x w1 w2 (ix2 r q) = gateRow (fun l => x (ix2 r l)) w1 w2 q := rfl

end Cert.FeatureGate

end
-- ==== Proof.BodyValue.lean ====
/-
  What the kernel body stores, read at one entry of the block.

  The body loads a block of 5000 rows of `x` and the two whole weight matrices, and stores
    x * logistic (2 * (max (x ⬝ w1) 0 ⬝ w2))
  where the two products are matrix products into a zero accumulator and the changes of float format around them are
  the identity on extended reals. Read at row `p`, column `q` of the block, a matrix product into zero is the plain sum
  over its one contracted axis, so the stored entry is the gate of row `p` of the block at column `q`
  (`Cert.FeatureGate.gateRow`): it depends on row `p` of the block only.
-/
import proofs.«117303_j83837761618430_2_alg».proof.Proof.Gen.KernelIdeal.Skeleton
import proofs.«117303_j83837761618430_2_alg».proof.Proof.GateRow
import Idealize.ShloMosaic.PureOps.Ideal.Laws
import Idealize.ShloMosaic.Lib.Pipeline.Value
import Idealize.ShloMosaic.Lib.ValueIdx

noncomputable section

open scoped BigOperators

namespace Cert.KernelIdeal.BodyValue

open Cert.KernelIdeal Cert.KernelIdeal.Gen Cert.FeatureGate
open Idealize.ShloMosaic Idealize.ShloMosaic.ValueIdx

/-! ## The first product: a block of rows against `w1`, contracted over the 256 columns -/

theorem lhs1_0 (i : S5000x16.Idx) (c : dot_S5000x256_S256x16_S5000x16_1_0_0_1_n_n.contr.Idx) :
    (dot_S5000x256_S256x16_S5000x16_1_0_0_1_n_n.lhsIdx i c 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem rhs1_1 (i : S5000x16.Idx) (c : dot_S5000x256_S256x16_S5000x16_1_0_0_1_n_n.contr.Idx) :
    (dot_S5000x256_S256x16_S5000x16_1_0_0_1_n_n.rhsIdx i c 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-- Entry (p, k) of the first product into zero: row `p` of the left operand against column `k` of the right. -/
theorem dot1_at (a : FVec Ideal S5000x256 .bf16) (b : FVec Ideal S256x16 .bf16) (p : Fin 5000) (k : Fin 16) :
    FloatOps.matmul dot_S5000x256_S256x16_S5000x16_1_0_0_1_n_n none a b (constant (F := Ideal) S5000x16 .f32 0x00000000#32) (ix2 p k)
      = ∑ l : Fin 256, a (ix2 p l) * b (ix2 l k) := by
  rw [Ideal.matmul_constant_zero_apply, ← Equiv.sum_comp (contrEquiv1 dot_S5000x256_S256x16_S5000x16_1_0_0_1_n_n 256 rfl rfl).symm]
  refine Finset.sum_congr rfl fun l _ => ?_
  have hl := contrEquiv1_symm_val dot_S5000x256_S256x16_S5000x16_1_0_0_1_n_n 256 rfl rfl l
  have el : dot_S5000x256_S256x16_S5000x16_1_0_0_1_n_n.lhsIdx (ix2 p k) ((contrEquiv1 dot_S5000x256_S256x16_S5000x16_1_0_0_1_n_n 256 rfl rfl).symm l) = ix2 p l := funext fun a => Fin.ext (by
    match a with
    | ⟨0, _⟩ => exact lhs1_0 _ _
    | ⟨1, _⟩ => exact (dot_S5000x256_S256x16_S5000x16_1_0_0_1_n_n.lhsIdx_val_of_single rfl _ _).trans hl)
  have er : dot_S5000x256_S256x16_S5000x16_1_0_0_1_n_n.rhsIdx (ix2 p k) ((contrEquiv1 dot_S5000x256_S256x16_S5000x16_1_0_0_1_n_n 256 rfl rfl).symm l) = ix2 l k := funext fun a => Fin.ext (by
    match a with
    | ⟨0, _⟩ => exact (dot_S5000x256_S256x16_S5000x16_1_0_0_1_n_n.rhsIdx_val_of_single rfl _ _).trans hl
    | ⟨1, _⟩ => exact rhs1_1 _ _)
  rw [el, er]

/-! ## The second product: the hidden activations against `w2`, contracted over the 16 hidden units -/

theorem lhs2_0 (i : S5000x256.Idx) (c : dot_S5000x16_S16x256_S5000x256_1_0_0_1_n_n.contr.Idx) :
    (dot_S5000x16_S16x256_S5000x256_1_0_0_1_n_n.lhsIdx i c 0).val = (i 0).val := by
  unfold DotDims.lhsIdx
  rw [dif_neg (show ¬(0 : Fin S5000x16.rank) ∈ dot_S5000x16_S16x256_S5000x256_1_0_0_1_n_n.lhsBatch by decide), dif_pos (show (0 : Fin S5000x16.rank) ∈ dot_S5000x16_S16x256_S5000x256_1_0_0_1_n_n.lhsNonContracting by decide)]
  rfl
theorem rhs2_1 (i : S5000x256.Idx) (c : dot_S5000x16_S16x256_S5000x256_1_0_0_1_n_n.contr.Idx) :
    (dot_S5000x16_S16x256_S5000x256_1_0_0_1_n_n.rhsIdx i c 1).val = (i 1).val := by
  unfold DotDims.rhsIdx
  rw [dif_neg (show ¬(1 : Fin S16x256.rank) ∈ dot_S5000x16_S16x256_S5000x256_1_0_0_1_n_n.rhsBatch by decide), dif_pos (show (1 : Fin S16x256.rank) ∈ dot_S5000x16_S16x256_S5000x256_1_0_0_1_n_n.rhsNonContracting by decide)]
  rfl

/-- Entry (p, q) of the second product into zero: row `p` of the left operand against column `q` of the right. -/
theorem dot2_at (a : FVec Ideal S5000x16 .bf16) (b : FVec Ideal S16x256 .bf16) (p : Fin 5000) (q : Fin 256) :
    FloatOps.matmul dot_S5000x16_S16x256_S5000x256_1_0_0_1_n_n none a b (constant (F := Ideal) S5000x256 .f32 0x00000000#32) (ix2 p q)
      = ∑ k : Fin 16, a (ix2 p k) * b (ix2 k q) := by
  rw [Ideal.matmul_constant_zero_apply, ← Equiv.sum_comp (contrEquiv1 dot_S5000x16_S16x256_S5000x256_1_0_0_1_n_n 16 rfl rfl).symm]
  refine Finset.sum_congr rfl fun k _ => ?_
  have hk := contrEquiv1_symm_val dot_S5000x16_S16x256_S5000x256_1_0_0_1_n_n 16 rfl rfl k
  have el : dot_S5000x16_S16x256_S5000x256_1_0_0_1_n_n.lhsIdx (ix2 p q) ((contrEquiv1 dot_S5000x16_S16x256_S5000x256_1_0_0_1_n_n 16 rfl rfl).symm k) = ix2 p k := funext fun a => Fin.ext (by
    match a with
    | ⟨0, _⟩ => exact lhs2_0 _ _
    | ⟨1, _⟩ => exact (dot_S5000x16_S16x256_S5000x256_1_0_0_1_n_n.lhsIdx_val_of_single rfl _ _).trans hk)
  have er : dot_S5000x16_S16x256_S5000x256_1_0_0_1_n_n.rhsIdx (ix2 p q) ((contrEquiv1 dot_S5000x16_S16x256_S5000x256_1_0_0_1_n_n 16 rfl rfl).symm k) = ix2 k q := funext fun a => Fin.ext (by
    match a with
    | ⟨0, _⟩ => exact (dot_S5000x16_S16x256_S5000x256_1_0_0_1_n_n.rhsIdx_val_of_single rfl _ _).trans hk
    | ⟨1, _⟩ => exact rhs2_1 _ _)
  rw [el, er]

/-! ## The stored entry -/

/-- Entry (p, q) of what the body stores is the gate of row `p` of the loaded block at column `q`. -/
theorem payload_at (x0 : Vec Ideal S5000x256 .f32) (x1 : Vec Ideal S256x16 .bf16) (x2 : Vec Ideal S16x256 .bf16)
    (p : Fin 5000) (q : Fin 256) :
    k0_pay1 (F := Ideal) x0 x1 x2 x0 (ix2 p q) = gateRow (fun l => x0 (ix2 p l)) x1 x2 q := by
  unfold k0_pay1 gateRow mixRow hiddenRow
  dsimp only
  rw [shapeCast_self, shapeCast_self]
  show x0 (ix2 p q) * Ideal.logistic (Ideal.ofBits .f32 0x40000000#32 *
      FloatOps.matmul dot_S5000x16_S16x256_S5000x256_1_0_0_1_n_n none _ x2
        (constant (F := Ideal) S5000x256 .f32 0x00000000#32) (ix2 p q)) = _
  rw [dot2_at]
  refine congrArg (fun z => x0 (ix2 p q) * Ideal.logistic (Ideal.ofBits .f32 0x40000000#32 * z))
    (Finset.sum_congr rfl fun k _ => ?_)
  show max (FloatOps.matmul dot_S5000x256_S256x16_S5000x16_1_0_0_1_n_n none _ x1
      (constant (F := Ideal) S5000x16 .f32 0x00000000#32) (ix2 p k)) (Ideal.ofBits .f32 0x00000000#32) * x2 (ix2 k q) = _
  rw [dot1_at]
  rfl

end Cert.KernelIdeal.BodyValue

end
-- ==== Proof.KernelValue.lean ====
/-
  From what each grid point writes back to the whole result array.

  The grid has 100 points; point `t` loads rows `5000 t … 5000 t + 4999` of `x` (all 256 columns) and the two whole
  weight matrices — which the host has only changed the float format of, the identity on extended reals — and writes
  back rows `5000 t … 5000 t + 4999` of the result. An entry of the stored block is the gate of ITS row of the loaded
  block (`BodyValue.payload_at`), and row `p` of the block loaded at point `t` is row `5000 t + p` of `x`; so point
  `t` writes back exactly block `t` of the gated array (`flushed_eq`). Row `r` of the result lies in the block of point
  `r / 5000`, so the 100 blocks cover the array (`covered`), and the array ends holding the gated array (`final`).
-/
import proofs.«117303_j83837761618430_2_alg».proof.Proof.Gen.KernelIdeal.Value
import proofs.«117303_j83837761618430_2_alg».proof.Proof.BodyValue
import Idealize.ShloMosaic.Lib.Pipeline.Value
import Idealize.ShloMosaic.Lib.StableHlo.Run
import Idealize.ShloMosaic.Lib.ValueIdx

noncomputable section

open scoped BigOperators

namespace Cert.KernelIdeal.KernelValue

open Cert.KernelIdeal Cert.KernelIdeal.Gen Cert.KernelIdeal.Value Cert.KernelIdeal.BodyValue Cert.FeatureGate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The weight arrays as the region finds them -/

/-- The array the second window stages is `w1` in another float format: the same extended reals. -/
theorem V_w1 (c : Dev nD) : (V m c main_v0 : S256x16.Idx → EReal) = m ((c : Thread nD τ).loc main_arg1) := by
  dsimp only [Gen.V, Gen.hostOps0]; after_results; rfl

/-- The array the third window stages is `w2` in another float format: the same extended reals. -/
theorem V_w2 (c : Dev nD) : (V m c main_v1 : S16x256.Idx → EReal) = m ((c : Thread nD τ).loc main_arg2) := by
  dsimp only [Gen.V, Gen.hostOps0]; after_results; rfl

/-! ## One entry, over plain blocks -/

/-- If row `y 0` of a block `x0` is row `i 0` of an array `X`, the two other blocks are the arrays `W1` and `W2`, and
    `y` and `i` name the same column, then what the body stores at `y` is the gated array at `i`. -/
theorem block_entry (X : (⟨2, ![500000, 256]⟩ : Shape).Idx → EReal) (W1 : (⟨2, ![256, 16]⟩ : Shape).Idx → EReal)
    (W2 : (⟨2, ![16, 256]⟩ : Shape).Idx → EReal)
    (x0 : Vec Ideal S5000x256 .f32) (x1 : Vec Ideal S256x16 .bf16) (x2 : Vec Ideal S16x256 .bf16)
    (y : S5000x256.Idx) (i : S500000x256.Idx)
    (h0 : ∀ l : Fin 256, x0 (ix2 (y 0) l) = X (ix2 (i 0) l))
    (hq : (i 1).val = (y 1).val)
    (h1 : ∀ z : S256x16.Idx, x1 z = W1 z) (h2 : ∀ z : S16x256.Idx, x2 z = W2 z) :
    k0_pay1 (F := Ideal) x0 x1 x2 x0 y = gated X W1 W2 i := by
  obtain ⟨p, q, rfl⟩ : ∃ (p : Fin 5000) (q : Fin 256), y = ix2 p q := ⟨y 0, y 1, eq_ix2 y⟩
  obtain ⟨r, q', rfl⟩ : ∃ (r : Fin 500000) (q' : Fin 256), i = ix2 r q' := ⟨i 0, i 1, eq_ix2 i⟩
  obtain rfl : q' = q := Fin.ext hq
  have h0' : ∀ l : Fin 256, x0 (ix2 p l) = X (ix2 r l) := h0
  rw [payload_at, gated_at]
  unfold gateRow mixRow hiddenRow
  simp only [h0', h1, h2]

/-! ## The printed index maps over the grid -/

/-- Decided over the 100 points: the block of `x` and the block of the result at point `t` are both block row `t`,
    block column 0; the weight matrices are always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What point `t` writes back -/

/-- Point `t` writes back block `t` of the gated array of the three arguments. -/
theorem flushed_eq (c : Dev nD) (t : Fin cfg0.N) :
    (dats m 0 c).flushed 3 t = ((cfg0.win 3).blk t).view.read (Elt Ideal)
      (gated (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S5000x256) hz, View.ld_unit_zero (S := S256x16) hz, View.ld_unit_zero (S := S16x256) hz]
  obtain ⟨e00, e01, e10, e11, e20, e21, e30, e31⟩ := idx_facts t
  funext j
  refine block_entry (m ((c : Thread nD τ).loc main_arg0)) (m ((c : Thread nD τ).loc main_arg1)) (m ((c : Thread nD τ).loc main_arg2))
    (iblk m c 0 t) (iblk m c 1 t) (iblk m c 2 t) j (((cfg0.win 3).blk t).view.emb j) ?_ ?_ ?_ ?_
  · -- row (j 0) of the block of x at point t is row 5000 t + (j 0) of x
    intro l
    show V m c main_arg0 (((cfg0.win 0).blk t).view.emb (ix2 (j 0) l)) = _
    rw [V_main_arg0]
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * l.val = l.val; omega
  · -- the result's block spans all 256 columns
    show win0_3.index t (1 : Fin 2) * 256 + 1 * (j 1).val = (j 1).val; omega
  · -- the block of the first weight matrix is the whole matrix
    intro z
    show V m c main_v0 (((cfg0.win 1).blk t).view.emb z) = _
    rw [V_w1]
    refine congrArg _ (funext fun a => Fin.ext ?_)
    match a with
    | ⟨0, _⟩ => show win0_1.index t (0 : Fin 2) * 256 + 1 * (z 0).val = (z 0).val; omega
    | ⟨1, _⟩ => show win0_1.index t (1 : Fin 2) * 16 + 1 * (z 1).val = (z 1).val; omega
  · -- the block of the second weight matrix is the whole matrix
    intro z
    show V m c main_v1 (((cfg0.win 2).blk t).view.emb z) = _
    rw [V_w2]
    refine congrArg _ (funext fun a => Fin.ext ?_)
    match a with
    | ⟨0, _⟩ => show win0_2.index t (0 : Fin 2) * 16 + 1 * (z 0).val = (z 0).val; omega
    | ⟨1, _⟩ => show win0_2.index t (1 : Fin 2) * 256 + 1 * (z 1).val = (z 1).val; omega

/-! ## The blocks cover the array -/

/-- An index of the result array is in point `t`'s block iff each coordinate is in the block's range on its axis. -/
theorem mem_blk (t : Fin cfg0.N) (i : S500000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v2).slice (win0_3.rect t)).set ↔ _
  rw [View.set_slice_whole, Rect.mem_set_unit]
  exact Iff.rfl

/-- Row `r` of the result lies in the block of point `r / 5000`. -/
theorem covered (i : S500000x256.Idx) :
    ∃ t : Fin cfg0.N, (cfg0.win 3).flush t = true ∧ i ∈ ((cfg0.win 3).blk t).view.set := by
  have hi0 : (i 0).val < 500000 := (i 0).isLt
  have hi1 : (i 1).val < 256 := (i 1).isLt
  have hN : cfg0.N = 100 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-! ## The array after the run, and the run -/

/-- The result array ends holding the gated array of the three arguments. -/
theorem final (c : Dev nD) : (dats m 0 c).arrAt 3 cfg0.N
    = gated (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the idealized kernel's program terminates, without a fault, with the result array
    at the gated array of the arguments and the arguments unchanged. -/
theorem run : θ_run defs (onTc (τ := τ) (main (F := Ideal))) ⟨m, fun _ => 0, ρ⟩ fun r => ∀ c : Dev nD,
      r.2.mem ((c : Thread nD τ).loc main_v2)
        = gated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefValue.lean ====
/-
  What the reference computes, read at one entry.

  The reference multiplies `x` by `1 / (1 + exp (-(m + m)))`, where `m = max (x ⬝ w1) 0 ⬝ w2` is computed twice (the
  same operations on the same arguments) and the two copies are added. Read at row `r`, column `q`, each matrix
  product is the sum over its contracted axis, so both copies are the mixed activation of row `r` at column `q`, and
  the entry is `x (r, q) * 1 / (1 + exp (-(mix + mix)))`: the gate of row `r` at column `q`, because adding a number to
  itself is doubling it and the quotient is the logistic (`Cert.FeatureGate.gateRow_of_sum`).
-/
import proofs.«117303_j83837761618430_2_alg».proof.Proof.Gen.ReferenceIdeal.Read
import proofs.«117303_j83837761618430_2_alg».proof.Proof.GateRow

noncomputable section

open scoped BigOperators

namespace Cert.ReferenceIdeal.RefValue

open Cert.ReferenceIdeal Cert.ReferenceIdeal.Read Cert.FeatureGate
open Idealize.ShloMosaic Idealize.ShloMosaic.ValueIdx

/-- The reference's result array is the gated array: entry by entry, the composed stages are the gate of the entry's
    row at the entry's column. -/
theorem result_eq (x0 : (⟨S500000x256, .f32⟩ : BufTy).Contents (Elt Ideal)) (x1 : (⟨S256x16, .f32⟩ : BufTy).Contents (Elt Ideal))
    (x2 : (⟨S16x256, .f32⟩ : BufTy).Contents (Elt Ideal)) :
    val_main_v15 (F := Ideal) x0 x1 x2 = gated x0 x1 x2 := by
  funext i
  obtain ⟨r, q, rfl⟩ : ∃ (r : Fin 500000) (q : Fin 256), i = ix2 r q := ⟨i 0, i 1, eq_ix2 i⟩
  rw [gated_at, ← gateRow_of_sum]
  unfold mixRow hiddenRow
  -- the rows and columns the two outer products read: row r of the hidden activations, column q of w2
  have l3 : ∀ k : Fin 16, lidx_main_v3 (ix2 r q) k = ix2 r k := fun k => funext fun a => Fin.ext (by
    match a with | ⟨0, _⟩ => rfl | ⟨1, _⟩ => rfl)
  have r3 : ∀ k : Fin 16, ridx_main_v3 (ix2 r q) k = ix2 k q := fun k => funext fun a => Fin.ext (by
    match a with | ⟨0, _⟩ => rfl | ⟨1, _⟩ => rfl)
  have l7 : ∀ k : Fin 16, lidx_main_v7 (ix2 r q) k = ix2 r k := fun k => funext fun a => Fin.ext (by
    match a with | ⟨0, _⟩ => rfl | ⟨1, _⟩ => rfl)
  have r7 : ∀ k : Fin 16, ridx_main_v7 (ix2 r q) k = ix2 k q := fun k => funext fun a => Fin.ext (by
    match a with | ⟨0, _⟩ => rfl | ⟨1, _⟩ => rfl)
  -- the rows and columns the two inner products read: row r of x, column k of w1
  have l0 : ∀ (k : Fin 16) (l : Fin 256), lidx_main_v0 (ix2 r k) l = ix2 r l := fun k l => funext fun a => Fin.ext (by
    match a with | ⟨0, _⟩ => rfl | ⟨1, _⟩ => rfl)
  have r0 : ∀ (k : Fin 16) (l : Fin 256), ridx_main_v0 (ix2 r k) l = ix2 l k := fun k l => funext fun a => Fin.ext (by
    match a with | ⟨0, _⟩ => rfl | ⟨1, _⟩ => rfl)
  have l4 : ∀ (k : Fin 16) (l : Fin 256), lidx_main_v4 (ix2 r k) l = ix2 r l := fun k l => funext fun a => Fin.ext (by
    match a with | ⟨0, _⟩ => rfl | ⟨1, _⟩ => rfl)
  have r4 : ∀ (k : Fin 16) (l : Fin 256), ridx_main_v4 (ix2 r k) l = ix2 l k := fun k l => funext fun a => Fin.ext (by
    match a with | ⟨0, _⟩ => rfl | ⟨1, _⟩ => rfl)
  rw [val_main_v15_apply, val_main_v14_apply, val_main_v13_apply, val_main_cst_2_apply, val_main_v12_apply,
    val_main_v11_apply, val_main_cst_1_apply, val_main_v10_apply, val_main_v9_apply, val_main_v8_apply,
    val_main_v3_apply, val_main_v7_apply]
  simp only [l3, r3, l7, r7, val_main_v2_apply, val_main_v6_apply, val_main_v0_apply, val_main_v4_apply,
    val_main_v1_apply, val_main_v5_apply, val_main_cst_apply, val_main_cst_0_apply, l0, r0, l4, r4,
    Ideal.mulf_def, Ideal.addf_def, Ideal.hostDivf_def, Ideal.hostUnary_exp_def, Ideal.hostNegf_def, Ideal.negf_def,
    Ideal.maximumf_def, Ideal.ofBits_def]

end Cert.ReferenceIdeal.RefValue

end
-- ==== Proof.lean ====
/-
  The kernel against its reference: `x * sigmoid (2 * m)` against `x * sigmoid (m + m)`, where
  `m = max (x ⬝ w1) 0 ⬝ w2` for `x` of 500000 rows by 256 columns, `w1` 256 by 16 and `w2` 16 by 256.

  At the ideal values every float is an extended real, a change of float format is the identity, and a matrix product
  is the exact sum over its contracted axis. Row `r` of the result depends on row `r` of `x` only (and on the weights),
  so both programs are one function of a row, `Cert.FeatureGate.gateRow` (Proof/GateRow.lean), applied to every row:
    * the kernel walks the rows in 100 blocks of 5000; what it stores in a block is the gate of each row of the block
      (Proof/BodyValue.lean), block `t` is rows `5000 t …` of the array, and the 100 blocks cover the array
      (Proof/KernelValue.lean);
    * the reference computes `m` twice, adds the copies and writes the logistic out as `1 / (1 + exp (-z))`; read at
      an entry this is the gate of the entry's row (Proof/RefValue.lean).
  The two spellings agree by one law: on the extended reals `2 * M = M + M` for every `M`, the infinities included, so
  no finiteness of the inputs is used and the precondition is never opened. The idealization rewrote nothing in the
  kernel, so there is nothing to preserve beyond the program's own text.
-/
import proofs.«117303_j83837761618430_2_alg».proof.Defs
import proofs.«117303_j83837761618430_2_alg».proof.Proof.Gen.Kernel
import proofs.«117303_j83837761618430_2_alg».proof.Proof.Gen.Kernel.Skeleton
import proofs.«117303_j83837761618430_2_alg».proof.Proof.Gen.Kernel.Launch
import proofs.«117303_j83837761618430_2_alg».proof.Proof.Gen.Kernel.Points
import proofs.«117303_j83837761618430_2_alg».proof.Proof.Gen.Kernel.Frame
import proofs.«117303_j83837761618430_2_alg».proof.Proof.Gen.KernelIdeal
import proofs.«117303_j83837761618430_2_alg».proof.Proof.Gen.KernelIdeal.Skeleton
import proofs.«117303_j83837761618430_2_alg».proof.Proof.Gen.KernelIdeal.Launch
import proofs.«117303_j83837761618430_2_alg».proof.Proof.Gen.KernelIdeal.Points
import proofs.«117303_j83837761618430_2_alg».proof.Proof.Gen.KernelIdeal.Frame
import proofs.«117303_j83837761618430_2_alg».proof.Proof.Gen.ReferenceIdeal
import proofs.«117303_j83837761618430_2_alg».proof.Proof.Gen.Pre_finite_inputs
import proofs.«117303_j83837761618430_2_alg».proof.Proof.Gen.KernelIdeal.Value
import proofs.«117303_j83837761618430_2_alg».proof.Proof.Gen.ReferenceIdeal.Run
import proofs.«117303_j83837761618430_2_alg».proof.Proof.Gen.ReferenceIdeal.Read
import proofs.«117303_j83837761618430_2_alg».proof.Proof.KernelValue
import proofs.«117303_j83837761618430_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its three arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the ideal values. -/
theorem preserves : Cert.preserves_Kernel_KernelIdeal := trivial

/-- From memories that agree on the three arguments both programs end with the result array at the gated array of
    the arguments: the kernel block by block, the reference entry by entry. -/
theorem algebraic : Cert.algebraic_KernelIdeal_ReferenceIdeal := by
  intro m ρ m' ρ' _ hagree
  refine ⟨fun c => Cert.FeatureGate.gated (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
